-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S2048x256 : Shape := ⟨2, ![2048, 256]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S2048x256, .f32⟩
  | .local _ .vmem, ⟨4, _⟩ => ⟨S2048x256, .f32⟩
  | .local _ .vmem, ⟨5, _⟩ => ⟨S1024x256, .bf16⟩
  | .local _ .vmem, ⟨6, _⟩ => ⟨S1024x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  reduces_S2048x1024_S2048 : S2048x1024.Reduces [1] S2048
  dot_S2048x256_S1024x256_S2048x1024_1_1_0_0_n_n_wf : DotDims.WF S2048x256 S1024x256 S2048x1024 [1] [1] [0] [0] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S256x1024 : Shape := ⟨2, ![256, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x256, .f32⟩
  | .hbm, ⟨23, _⟩ => ⟨S1024x256, .f32⟩
  | .hbm, ⟨24, _⟩ => ⟨S256x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  reducesTo_S1024x256_S1024_d1 : S1024x256.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  transposes_S1024x256_S256x1024_1_0 : S1024x256.Transposes [1, 0] S256x1024
  reducesTo_S16384x1024_S16384_d1 : S16384x1024.ReducesTo [1] S16384
  bcast_S_S16384 : S_.BroadcastsInDim S16384 (![] : Fin 0 → Fin S16384.rank)
  bcast_S16384x1_S16384x1024_0_1 : S16384x1.BroadcastsInDim S16384x1024 (![0, 1] : Fin 2 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.Pieces.lean ====
/-
  What one run of the body leaves behind, as values.

  At the first grid point the body reads the whole centroid table c, stores its rows scaled to unit length into the
  first carried buffer and c itself into the second, reads both back and stores the output block computed from the
  row block x and those two tables. At every later point it stores only the output block, computed from x and
  whatever the two carried buffers hold. Each stored array covers its buffer whole, so what a buffer holds afterwards
  is the stored value itself.
-/
import proofs.«164544_g68023692034068_cont_9to1_m_350_14_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F] [Named F]

/-- The zero offsets of a whole-buffer access. -/
theorem hz : (![0, 0] : Fin 2 → Nat) = fun _ => 0 := funext fun a => by fin_cases a <;> rfl

/-- First point: the first carried buffer ends holding the unit-length centroid rows. -/
theorem scratch0_A (c : Dev nD) (i : grid0.Coords) (arg1 : Memref sig .tc .vmem S2048x256 .f32) (harg1 : arg1.IsWhole) (arg2 : Memref sig .tc .vmem S1024x256 .f32) (harg2 : arg2.IsWhole) (arg3 : Memref sig .tc .vmem S2048x256 .f32) (harg3 : arg3.IsWhole) (arg4 : Memref sig .tc .vmem S1024x256 .bf16) (harg4 : arg4.IsWhole) (arg5 : Memref sig .tc .vmem S1024x256 .bf16) (harg5 : arg5.IsWhole) (hc0 : cond0_0 i) (x0 : Vec F S2048x256 .f32) (x1 : Vec F S1024x256 .f32) :
    sout0_A_0 c i arg1 harg1 arg2 harg2 arg3 harg3 arg4 harg4 arg5 harg5 hc0 x0 x1 = k0_pay1 x1 := by
  unfold sout0_A_0
  rw [View.read_writes_eq_canon _ _ _ (scover0_A_0 c i arg1 harg1 arg2 harg2 arg3 harg3 arg4 harg4 arg5 harg5 hc0 x0 x1)]
  unfold kernelRun0_A
  dsimp only
  sl_unfold_words
  rw [View.canon_unit_zero hz]
  simp only [View.readAt_eq_ld, harg2.read_unread, View.ld_unit_zero (S := S1024x256) hz]

/-- First point: the second carried buffer ends holding the centroid table. -/
theorem scratch1_A (c : Dev nD) (i : grid0.Coords) (arg1 : Memref sig .tc .vmem S2048x256 .f32) (harg1 : arg1.IsWhole) (arg2 : Memref sig .tc .vmem S1024x256 .f32) (harg2 : arg2.IsWhole) (arg3 : Memref sig .tc .vmem S2048x256 .f32) (harg3 : arg3.IsWhole) (arg4 : Memref sig .tc .vmem S1024x256 .bf16) (harg4 : arg4.IsWhole) (arg5 : Memref sig .tc .vmem S1024x256 .bf16) (harg5 : arg5.IsWhole) (hc0 : cond0_0 i) (x0 : Vec F S2048x256 .f32) (x1 : Vec F S1024x256 .f32) :
    sout0_A_1 c i arg1 harg1 arg2 harg2 arg3 harg3 arg4 harg4 arg5 harg5 hc0 x0 x1 = k0_pay2 x1 := by
  unfold sout0_A_1
  rw [View.read_writes_eq_canon _ _ _ (scover0_A_1 c i arg1 harg1 arg2 harg2 arg3 harg3 arg4 harg4 arg5 harg5 hc0 x0 x1)]
  unfold kernelRun0_A
  dsimp only
  sl_unfold_words
  rw [View.canon_unit_zero hz]
  simp only [View.readAt_eq_ld, harg2.read_unread, View.ld_unit_zero (S := S1024x256) hz]

/-- First point: the output block is computed from the row block and the two tables just stored. -/
theorem out_A (c : Dev nD) (i : grid0.Coords) (arg1 : Memref sig .tc .vmem S2048x256 .f32) (harg1 : arg1.IsWhole) (arg2 : Memref sig .tc .vmem S1024x256 .f32) (harg2 : arg2.IsWhole) (arg3 : Memref sig .tc .vmem S2048x256 .f32) (harg3 : arg3.IsWhole) (arg4 : Memref sig .tc .vmem S1024x256 .bf16) (harg4 : arg4.IsWhole) (arg5 : Memref sig .tc .vmem S1024x256 .bf16) (harg5 : arg5.IsWhole) (hc0 : cond0_0 i) (x0 : Vec F S2048x256 .f32) (x1 : Vec F S1024x256 .f32) :
    out0_A_2 c i arg1 harg1 arg2 harg2 arg3 harg3 arg4 harg4 arg5 harg5 hc0 x0 x1 = k0_pay3 x0 (k0_pay1 x1) (k0_pay2 x1) := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  rw [View.canon_unit_zero hz, View.readCov_unit_zero (S := S1024x256) _ hz, View.readCov_unit_zero (S := S1024x256) _ hz]
  simp only [View.readAt_eq_ld, harg1.read_unread, harg2.read_unread, View.ld_unit_zero (S := S1024x256) hz,
    View.ld_unit_zero (S := S2048x256) hz]

/-- A later point: the output block is computed from the row block and what the two carried buffers hold. -/
theorem out_B (c : Dev nD) (i : grid0.Coords) (arg1 : Memref sig .tc .vmem S2048x256 .f32) (harg1 : arg1.IsWhole) (arg2 : Memref sig .tc .vmem S1024x256 .f32) (harg2 : arg2.IsWhole) (arg3 : Memref sig .tc .vmem S2048x256 .f32) (harg3 : arg3.IsWhole) (arg4 : Memref sig .tc .vmem S1024x256 .bf16) (harg4 : arg4.IsWhole) (arg5 : Memref sig .tc .vmem S1024x256 .bf16) (harg5 : arg5.IsWhole) (hc0 : ¬cond0_0 i) (x0 : Vec F S2048x256 .f32) (x1 : Vec F S1024x256 .f32)
    (xs0 xs1 : Vec F S1024x256 .bf16) :
    out0_B_2 c i arg1 harg1 arg2 harg2 arg3 harg3 arg4 harg4 arg5 harg5 hc0 x0 x1 xs0 xs1 = k0_pay3 x0 xs0 xs1 := by
  unfold out0_B_2
  rw [View.read_writes_eq_canon _ _ _ (cover0_B_2 c i arg1 harg1 arg2 harg2 arg3 harg3 arg4 harg4 arg5 harg5 hc0 x0 x1 xs0 xs1)]
  unfold kernelRun0_B
  dsimp only
  sl_unfold_words
  rw [View.canon_unit_zero hz]
  simp only [View.readAt_eq_ld, harg1.read_unread, harg4.read_unread, harg5.read_unread, View.ld_unit_zero (S := S1024x256) hz,
    View.ld_unit_zero (S := S2048x256) hz]

end Cert.KernelIdeal.Pieces

end
-- ==== Proof.Carried.lean ====
/-
  What the carried buffers hold after each grid point, and what each point stores for the output.

  Only the first of the 8 grid points fills the two carried buffers, from the centroid table, whose window shows the
  whole table at every point; the later points leave them alone. So after every point the first buffer holds the
  unit-length centroid rows and the second the table itself (induction on the point), and the output block stored at
  any point is computed from that point's row block of x and those two tables.
-/
import proofs.«164544_g68023692034068_cont_9to1_m_350_14_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F] [Named F]
variable (m : (ℓ : Loc nD τ sig) → Buf (Elt F) ℓ)

/-- The first grid point. -/
abbrev t0 : Fin cfg0.N := ⟨0, by rw [show cfg0.N = 8 from N_0]; decide⟩

/-- The centroid table as the first point's window shows it. -/
abbrev tab (c : Dev nD) : Vec F S1024x256 .f32 := iblk m c 1 t0

/-- After every point the two carried buffers hold the unit-length centroid rows and the centroid table. -/
theorem carried (c : Dev nD) : ∀ (n : ℕ) (h : n < cfg0.N),
    (outsAt0 m c n h).2.1 = k0_pay1 (tab m c) ∧ (outsAt0 m c n h).2.2 = k0_pay2 (tab m c)
  | 0, h => by
    rw [outsAt0_A m c ⟨0, h⟩ rfl]
    dsimp only
    refine ⟨(scratch0_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) scM0_1 (Memref.isWhole_whole _) ((hcond0_0 ⟨0, h⟩).mpr rfl) (iblk m c 0 ⟨0, h⟩) (iblk m c 1 ⟨0, h⟩)).trans rfl,
      (scratch1_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) scM0_1 (Memref.isWhole_whole _) ((hcond0_0 ⟨0, h⟩).mpr rfl) (iblk m c 0 ⟨0, h⟩) (iblk m c 1 ⟨0, h⟩)).trans rfl⟩
  | n + 1, h => by
    have hN : cfg0.N = 8 := N_0
    have hB : ¬(⟨n + 1, h⟩ : Fin cfg0.N).val % 8 = 0 := by dsimp only; omega
    rw [outsAt0_B m c ⟨n + 1, h⟩ hB]
    dsimp only [sout0_B_0, sout0_B_1]
    exact carried c n (Nat.lt_of_succ_lt h)

/-- The output block stored at point t: computed from the point's row block and the two tables. -/
theorem stored (c : Dev nD) (t : Fin cfg0.N) :
    (outsAt0 m c t.val t.isLt).1 = k0_pay3 (iblk m c 0 t) (k0_pay1 (tab m c)) (k0_pay2 (tab m c)) := by
  have hN : cfg0.N = 8 := N_0
  by_cases h0 : t.val % 8 = 0
  · have ht : t = t0 := Fin.ext (by have := t.isLt; show t.val = 0; omega)
    subst ht
    rw [outsAt0_A m c t0 h0]
    dsimp only
    exact out_A c (grid0.coords t0) (ms0_0 t0) (hs0_0 t0) (ms0_1 t0) (hs0_1 t0) (ms0_2 t0) (hs0_2 t0)
      scM0_0 (Memref.isWhole_whole _) scM0_1 (Memref.isWhole_whole _) ((hcond0_0 t0).mpr h0) (iblk m c 0 t0) (iblk m c 1 t0)
  · have hpos : 0 < t.val := Nat.pos_of_ne_zero fun hz0 => h0 (by rw [hz0])
    have hc := carried m c (t.val - 1) (Nat.lt_of_le_of_lt (Nat.sub_le _ _) t.isLt)
    rw [outsAt0_B m c t h0]
    dsimp only
    refine (out_B c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) (iblk m c 0 t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2).trans ?_
    rw [hc.1, hc.2]

end Cert.KernelIdeal.Carried

end
-- ==== Proof.Spec.lean ====
/-
  The soft assignment of a row to 1024 centroids, written twice on the extended reals.

  A row x (256 entries) and the centroid table c (1024 rows of 256 entries) give the cosine similarity of x with each
  centroid p, the exponential weights of those similarities, and the weighted mean of the centroids:

      out q = (sum over p of exp (sim p) * c p q) / (sum over p of exp (sim p)).

  `rowK` writes it the way the fused computation does: a vector is made a unit vector by multiplying with the
  reciprocal square root of its squared length, the squared length clamped from below at `floorSq`; the weights are
  not shifted; the division by the total weight comes last. `rowR` writes it the way the plain computation does: a
  vector is divided by its length, the length clamped from below at `floorR`; every similarity is shifted by a number
  `M` before the exponential; each weight is divided by the total weight before the centroids are averaged.
  `floorSq` is the square of `floorR`, so the two clamps cut at the same length.
-/
import Idealize.ShloMosaic.PureOps.Ideal

noncomputable section

open scoped BigOperators

namespace Centroid

open Idealize.ShloMosaic

/-- The lower clamp of a squared length: (2305843 / 2^61)^2. -/
def floorSq : EReal := ((5316911940649 / 5316911983139663491615228241121378304 : ℝ) : EReal)

/-- The lower clamp of a length, as the binary32 pattern that denotes 2305843 / 2^61. -/
def floorR : EReal := Ideal.ofBits .f32 0x2B8CBCCC#32

/-- The squared length of a vector. -/
def ssq (v : Fin 256 → EReal) : EReal := ∑ d : Fin 256, v d * v d

/-- A vector scaled to unit length by the reciprocal square root of its clamped squared length. -/
def unitK (v : Fin 256 → EReal) (d : Fin 256) : EReal := v d * Ideal.rsqrt (max (ssq v) floorSq)

/-- A vector scaled to unit length by dividing by its clamped length. -/
def unitR (v : Fin 256 → EReal) (d : Fin 256) : EReal := Ideal.div (v d) (max floorR (Ideal.sqrt (ssq v)))

/-- The cosine similarity of a row with centroid p, over `unitK`. -/
def simK (x : Fin 256 → EReal) (c : Fin 1024 → Fin 256 → EReal) (p : Fin 1024) : EReal :=
  ∑ d : Fin 256, unitK x d * unitK (c p) d

/-- The cosine similarity of a row with centroid p, over `unitR`. -/
def simR (x : Fin 256 → EReal) (c : Fin 1024 → Fin 256 → EReal) (p : Fin 1024) : EReal :=
  ∑ d : Fin 256, unitR x d * unitR (c p) d

/-- Entry q of the weighted mean of the centroids: unshifted weights, one division at the end. -/
def rowK (x : Fin 256 → EReal) (c : Fin 1024 → Fin 256 → EReal) (q : Fin 256) : EReal :=
  Ideal.div (∑ p : Fin 1024, Ideal.exp (simK x c p) * c p q) (∑ p : Fin 1024, Ideal.exp (simK x c p))

/-- Entry q of the weighted mean of the centroids: weights shifted by `M` and normalized one by one. -/
def rowR (x : Fin 256 → EReal) (c : Fin 1024 → Fin 256 → EReal) (M : EReal) (q : Fin 256) : EReal :=
  ∑ p : Fin 1024, Ideal.div (Ideal.exp (simR x c p - M)) (∑ p' : Fin 1024, Ideal.exp (simR x c p' - M)) * c p q

end Centroid

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.PayAt.lean ====
/-
  The three values the fused computation stores, read at an index.

  The first grid point stores two tables made from the centroid table: its rows scaled to unit length (each row times
  the reciprocal square root of its clamped squared length) and a plain copy. Every grid point then scales the rows
  of its block of the first input the same way, takes their inner products with the unit centroid rows,
  exponentiates, and divides the weighted sum of the stored centroid rows by the total weight. Read one entry at a
  time, with the narrowing format changes the identity on the extended reals, these are "Centroid.unitK", the table
  itself, and "Centroid.rowK".
-/
import proofs.«164544_g68023692034068_cont_9to1_m_350_14_alg».proof.Proof.Gen.KernelIdeal.Skeleton
import proofs.«164544_g68023692034068_cont_9to1_m_350_14_alg».proof.Proof.Spec
import proofs.«164544_g68023692034068_cont_9to1_m_350_14_alg».proof.Proof.LibSumsAtIndex
import proofs.«164544_g68023692034068_cont_9to1_m_350_14_alg».proof.Proof.LibKeptColumn
import proofs.«164544_g68023692034068_cont_9to1_m_350_14_alg».proof.Proof.LibRowDot
import proofs.«164544_g68023692034068_cont_9to1_m_350_14_alg».proof.Proof.LibPlainMatmul
import Idealize.ShloMosaic.PureOps.IdealRules
import Idealize.ShloMosaic.Lib.ValueIdx

noncomputable section

open scoped BigOperators

namespace Centroid.Pay

open Cert.KernelIdeal Cert.KernelIdeal.Gen Idealize.ShloMosaic Idealize.ShloMosaic.ValueIdx

/-- The named lower clamp of a squared length denotes "Centroid.floorSq". -/
theorem eps_sq : Named.named (F := Ideal) Cert.KernelIdeal.κ "eps_sq" (φ := .f32) 0x179ABE15#32 = Centroid.floorSq :=
  IdealRules.named_const.ideal_named_scalar _ _ _ _ rfl

/-- A row of an [a, 256] array times the reciprocal square root of its clamped squared length, at (r, d): the row's
    sum of squares is kept as a column, clamped from below, and spread back along the row. -/
theorem unit_at {a : ℕ} (v : FVec Ideal ⟨2, ![a, 256]⟩ .f32)
    (h1 : (⟨2, ![a, 256]⟩ : Shape).Reduces [1] ⟨1, ![a]⟩) (hφ : FKind.Formats .f32)
    (hacc : (0x00000000#32 : BitVec FTy.f32.bits) = FKind.add.neutral .f32 hφ)
    (h2 : (⟨1, ![a]⟩ : Shape).ShapeCasts ⟨2, ![a, 1]⟩) (h3 : (⟨2, ![a, 1]⟩ : Shape).Broadcasts ⟨2, ![a, 256]⟩)
    (r : Fin a) (d : Fin 256) :
    mulf v (broadcastTo ⟨2, ![a, 256]⟩ (rsqrt (maximumf
        (shapeCast ⟨2, ![a, 1]⟩ (multiReduction .add [1] ⟨1, ![a]⟩ (mulf v v) 0x00000000#32 h1 hφ hacc) h2)
        (broadcast ⟨2, ![a, 1]⟩ (Named.named (F := Ideal) Cert.KernelIdeal.κ "eps_sq" (φ := .f32) 0x179ABE15#32)))) h3) (ix2 r d)
      = Centroid.unitK (fun d' => v (ix2 r d')) d := by
  unfold Centroid.unitK Centroid.ssq
  refine congrArg (v (ix2 r d) * ·) ?_
  refine (KeptColumn.broadcastTo_a1_ab_apply _ h3 r d).trans ?_
  refine congrArg Ideal.rsqrt (congrArg₂ max ?_ eps_sq)
  refine (KeptColumn.shapeCast_a_a1_apply _ h2 r 0).trans ?_
  exact SumsAtIndex.rowsum_apply _ _ h1 hφ hacc r

/-- the unit-length centroid rows at (p, d) -/
theorem unit_rows_at (tab : Vec Ideal S1024x256 .f32) (p : Fin 1024) (d : Fin 256) :
    k0_pay1 (F := Ideal) tab (ix2 p d) = Centroid.unitK (fun d' => tab (ix2 p d')) d := by
  unfold k0_pay1
  refine (congrFun (shapeCast_self _ _) _).trans ?_
  refine (truncf_apply (φ := .f32) (ψ := .bf16) _ _ _).trans ?_
  exact unit_at tab _ _ _ _ _ p d

/-- the stored copy of the table at (p, d) -/
theorem table_at (tab : Vec Ideal S1024x256 .f32) (p : Fin 1024) (d : Fin 256) :
    k0_pay2 (F := Ideal) tab (ix2 p d) = tab (ix2 p d) := by
  unfold k0_pay2
  refine (congrFun (shapeCast_self _ _) _).trans ?_
  exact truncf_apply (φ := .f32) (ψ := .bf16) _ _ _

/-- The output block at (r, q) for a general pair of stored tables: the sum over the table rows of the exponential
    of the inner product of the unit row r with row p of the first table, times entry (p, q) of the second table,
    divided by the sum of those exponentials. -/
theorem pay3_at (x : Vec Ideal S2048x256 .f32) (v13 v19 : Vec Ideal S1024x256 .bf16) (r : Fin 2048) (q : Fin 256) :
    k0_pay3 (F := Ideal) x v13 v19 (ix2 r q)
      = Ideal.div
          (∑ p : Fin 1024, Ideal.exp (∑ d : Fin 256, Centroid.unitK (fun d' => x (ix2 r d')) d * v13 (ix2 p d)) * v19 (ix2 p q))
          (∑ p : Fin 1024, Ideal.exp (∑ d : Fin 256, Centroid.unitK (fun d' => x (ix2 r d')) d * v13 (ix2 p d))) := by
  unfold k0_pay3
  refine congrArg₂ Ideal.div ?_ ?_
  · refine (PlainMatmul.matmul_zero_apply (φ₁ := .bf16) (φ₂ := .bf16) dot_S2048x1024_S1024x256_S2048x256_1_0_0_1_n_n rfl rfl rfl rfl rfl rfl none _ v19 r q).trans ?_
    refine Finset.sum_congr rfl fun k _ => congrArg (· * v19 (ix2 k q)) ?_
    refine (truncf_apply (φ := .f32) (ψ := .bf16) _ _ _).trans ?_
    refine congrArg Ideal.exp ?_
    refine (RowDot.matmul_zero_apply (φ₁ := .bf16) (φ₂ := .bf16) dot_S2048x256_S1024x256_S2048x1024_1_1_0_0_n_n rfl rfl rfl rfl rfl rfl none _ v13 r k).trans ?_
    refine Finset.sum_congr rfl fun d _ => congrArg (· * v13 (ix2 k d)) ?_
    refine (truncf_apply (φ := .f32) (ψ := .bf16) _ _ _).trans ?_
    exact unit_at x _ _ _ _ _ r d
  · refine (KeptColumn.broadcastTo_a1_ab_apply _ _ r q).trans ?_
    refine (KeptColumn.shapeCast_a_a1_apply _ _ r 0).trans ?_
    refine (SumsAtIndex.rowsum_apply _ _ _ _ _ r).trans ?_
    refine Finset.sum_congr rfl fun k _ => ?_
    refine congrArg Ideal.exp ?_
    refine (RowDot.matmul_zero_apply (φ₁ := .bf16) (φ₂ := .bf16) dot_S2048x256_S1024x256_S2048x1024_1_1_0_0_n_n rfl rfl rfl rfl rfl rfl none _ v13 r k).trans ?_
    refine Finset.sum_congr rfl fun d _ => congrArg (· * v13 (ix2 k d)) ?_
    refine (truncf_apply (φ := .f32) (ψ := .bf16) _ _ _).trans ?_
    exact unit_at x _ _ _ _ _ r d

/-- the output block at (r, q), when the two tables are the ones the first grid point stores -/
theorem block_at (x : Vec Ideal S2048x256 .f32) (tab : Vec Ideal S1024x256 .f32) (r : Fin 2048) (q : Fin 256) :
    k0_pay3 (F := Ideal) x (k0_pay1 (F := Ideal) tab) (k0_pay2 (F := Ideal) tab) (ix2 r q)
      = Centroid.rowK (fun d => x (ix2 r d)) (fun p d => tab (ix2 p d)) q := by
  refine (pay3_at x (k0_pay1 (F := Ideal) tab) (k0_pay2 (F := Ideal) tab) r q).trans ?_
  have hs : ∀ p : Fin 1024,
      (∑ d : Fin 256, Centroid.unitK (fun d' => x (ix2 r d')) d * k0_pay1 (F := Ideal) tab (ix2 p d))
        = Centroid.simK (fun d => x (ix2 r d)) (fun p d => tab (ix2 p d)) p :=
    fun p => Finset.sum_congr rfl fun d _ => congrArg (Centroid.unitK (fun d' => x (ix2 r d')) d * ·) (unit_rows_at tab p d)
  unfold Centroid.rowK
  refine congrArg₂ Ideal.div (Finset.sum_congr rfl fun p _ => ?_) (Finset.sum_congr rfl fun p _ => congrArg Ideal.exp (hs p))
  exact congrArg₂ (· * ·) (congrArg Ideal.exp (hs p)) (table_at tab p q)

end Centroid.Pay

end
-- ==== Proof.Whole.lean ====
/-
  The fused program's result array is one function of its two argument arrays.

  Grid point t (of 8) stages rows 2048 t … 2048 t + 2047 of x, computes the output block from them and the two centroid
  tables the first point left in the carried buffers, and writes the block back to the same rows of the result. An
  entry of the block depends only on its own row of x and on the centroid table, so block t of the result is block t of
  the function G that sends row n of x and the table to the weighted mean of the centroids for that row; the 8 blocks
  tile the 16384 rows (row n belongs to point n / 2048), so the result array is G of the arguments.
-/
import proofs.«164544_g68023692034068_cont_9to1_m_350_14_alg».proof.Proof.Gen.KernelIdeal.Value
import proofs.«164544_g68023692034068_cont_9to1_m_350_14_alg».proof.Proof.Carried
import proofs.«164544_g68023692034068_cont_9to1_m_350_14_alg».proof.Proof.PayAt
import proofs.«164544_g68023692034068_cont_9to1_m_350_14_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Carried Idealize.ShloMosaic.ValueIdx

variable (m : (ℓ : Loc nD τ sig) → Buf (Elt Ideal) ℓ) (ρ : Dev nD → PrngReg)

/-- The result as one function of the two arrays: entry (n, q) is entry q of the weighted mean of the centroids for row n. -/
def G (X : S16384x256.Idx → EReal) (C : S1024x256.Idx → EReal) : S16384x256.Idx → EReal :=
  fun i => Centroid.rowK (fun d => X (ix2 (⟨(i 0).val, (i 0).isLt⟩ : Fin 16384) d)) (fun p d => C (ix2 p d)) (⟨(i 1).val, (i 1).isLt⟩ : Fin 256)

theorem G_at (X : S16384x256.Idx → EReal) (C : S1024x256.Idx → EReal) (n : Fin 16384) (q : Fin 256) :
    G X C (ix2 n q) = Centroid.rowK (fun d => X (ix2 n d)) (fun p d => C (ix2 p d)) q := rfl

/-- Where the windows' blocks sit, decided over the 8 grid points: the row block of x and the output block move together
    down the rows, one block per point; the centroid table's window never moves. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block of x at point t is rows 2048 t … 2048 t + 2047 of x. -/
theorem xblock_at (c : Dev nD) (t : Fin cfg0.N) (r : Fin 2048) (d : Fin 256) (k : S16384x256.Idx)
    (hk0 : (k 0).val = 2048 * t.val + r.val) (hk1 : (k 1).val = d.val) :
    (iblk m c 0 t : Vec Ideal S2048x256 .f32) (ix2 r d) = (V m c main_arg0 : S16384x256.Idx → EReal) k := by
  obtain ⟨e0, e1, -, -, -, -⟩ := index_facts t
  unfold iblk
  rw [View.read_apply]
  show V m c main_arg0 _ = V m c main_arg0 _
  congr 1
  funext a
  apply Fin.ext
  match a with
  | ⟨0, _⟩ => show win0_0.index t 0 * 2048 + 1 * r.val = (k 0).val; rw [e0, hk0]; omega
  | ⟨1, _⟩ => show win0_0.index t 1 * 256 + 1 * d.val = (k 1).val; rw [e1, hk1]; omega

/-- The centroid table's window shows the whole table. -/
theorem tab_at (c : Dev nD) (p : Fin 1024) (d : Fin 256) :
    (tab m c : Vec Ideal S1024x256 .f32) (ix2 p d) = (V m c main_arg1 : S1024x256.Idx → EReal) (ix2 p d) := by
  obtain ⟨-, -, e0, e1, -, -⟩ := index_facts (t0 : Fin cfg0.N)
  show (iblk m c 1 t0 : Vec Ideal S1024x256 .f32) (ix2 p d) = _
  unfold iblk
  rw [View.read_apply]
  show V m c main_arg1 _ = V m c main_arg1 _
  congr 1
  funext a
  apply Fin.ext
  match a with
  | ⟨0, _⟩ => show win0_1.index t0 0 * 1024 + 1 * p.val = p.val; rw [e0]; omega
  | ⟨1, _⟩ => show win0_1.index t0 1 * 256 + 1 * d.val = d.val; rw [e1]; omega

/-- What point t writes back is block t of the one function G of the two arrays. -/
theorem flushed_eq (c : Dev nD) (t : Fin cfg0.N) :
    (dats m 0 c).flushed 2 t = ((cfg0.win 2).blk t).view.read (Elt Ideal) (G (V m c main_arg0) (V m c main_arg1)) := by
  rw [flushed2, stored m c t]
  obtain ⟨-, -, -, -, e0, e1⟩ := index_facts t
  refine funext (fun (y : S2048x256.Idx) => ?_)
  obtain ⟨r, q, rfl⟩ : ∃ (r : Fin 2048) (q : Fin 256), y = ix2 r q := ⟨y 0, y 1, eq_ix2 y⟩
  show k0_pay3 (F := Ideal) (iblk m c 0 t) (k0_pay1 (F := Ideal) (tab m c)) (k0_pay2 (F := Ideal) (tab m c)) (ix2 r q)
    = G (V m c main_arg0) (V m c main_arg1) (((cfg0.win 2).blk t).view.emb (ix2 r q))
  refine (Centroid.Pay.block_at (iblk m c 0 t) (tab m c) r q).trans ?_
  have hN : cfg0.N = 8 := N_0
  have ht := t.isLt
  have hrow : (((cfg0.win 2).blk t).view.emb (ix2 r q) : S16384x256.Idx) = ix2 (⟨2048 * t.val + r.val, by omega⟩ : Fin 16384) q := by
    funext a
    apply Fin.ext
    match a with
    | ⟨0, _⟩ => show win0_2.index t 0 * 2048 + 1 * r.val = 2048 * t.val + r.val; rw [e0]; omega
    | ⟨1, _⟩ => show win0_2.index t 1 * 256 + 1 * q.val = q.val; rw [e1]; omega
  rw [hrow, G_at]
  congr 1
  · funext d
    exact xblock_at m c t r d _ rfl rfl
  · funext p d
    exact tab_at m c p d

/-- An index of the result array lies in point t's block iff each coordinate lies in the block's range on its axis. -/
theorem mem_blk (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every index of the result array is in the block of the point that owns its row: point (row / 2048). -/
theorem cover (i : S16384x256.Idx) : ∃ t : Fin cfg0.N, (cfg0.win 2).flush t = true ∧ i ∈ ((cfg0.win 2).blk t).view.set := by
  have hN : cfg0.N = 8 := N_0
  have hi0 : (i 0).val < 16384 := (i 0).isLt
  have hi1 : (i 1).val < 256 := (i 1).isLt
  refine ⟨⟨(i 0).val / 2048, by omega⟩, flush0_2 _, ?_⟩
  obtain ⟨-, -, -, -, e0, e1⟩ := index_facts (⟨(i 0).val / 2048, by omega⟩ : Fin cfg0.N)
  rw [mem_blk]
  intro a
  match a with
  | ⟨0, _⟩ =>
    show win0_2.index _ (0 : Fin 2) * 2048 ≤ (i 0).val ∧ (i 0).val < win0_2.index _ (0 : Fin 2) * 2048 + 2048
    rw [e0]; dsimp only; omega
  | ⟨1, _⟩ =>
    show win0_2.index _ (1 : Fin 2) * 256 ≤ (i 1).val ∧ (i 1).val < win0_2.index _ (1 : Fin 2) * 256 + 256
    rw [e1]; omega

/-- The result array after the run is G of the two argument arrays. -/
theorem final (c : Dev nD) : (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.LibNonnegFactor.lean ====
/-
  A nonnegative finite factor and a running maximum, on the extended reals.

  Multiplication does not distribute over addition on the extended reals in general (⊤ + ⊥ is ⊥ there, so
  (⊤ + ⊥) · (-1) and ⊤ · (-1) + ⊥ · (-1) differ), but it does when the common factor s satisfies 0 ≤ s < ⊤:
  whatever the summands are — finite or not — a finite sum times s is the sum of the terms times s.

  A left fold of `max` over a list: the result is below ⊤ when the start and every entry are, and it is
  at least the start and at least every entry. So the maximum of finitely many absolute values, at least one
  of them present, each below ⊤, is a nonnegative number below ⊤.
-/
import Mathlib.Data.EReal.Operations
import Mathlib.Algebra.BigOperators.Group.Finset.Basic

open scoped BigOperators

namespace EReal

/-- A factor s with 0 ≤ s < ⊤ goes into a finite sum of extended reals, whatever the summands. -/
theorem sum_mul_of_nonneg_of_ne_top {ι : Type*} (t : Finset ι) (a : ι → EReal) {s : EReal} (h0 : 0 ≤ s) (ht : s ≠ ⊤) :
    (∑ k ∈ t, a k) * s = ∑ k ∈ t, a k * s := by
  classical
  induction t using Finset.induction_on with
  | empty => simp
  | insert k t hk ih =>
    rw [Finset.sum_insert hk, Finset.sum_insert hk, EReal.right_distrib_of_nonneg_of_ne_top h0 ht, ih]

/-- A running maximum that starts below ⊤ and meets only entries below ⊤ ends below ⊤. -/
theorem foldl_max_lt_top {ι : Type*} (f : ι → EReal) :
    ∀ (l : List ι) (init : EReal), init < ⊤ → (∀ n ∈ l, f n < ⊤) → l.foldl (fun r n => max r (f n)) init < ⊤
  | [], _, h, _ => h
  | a :: l, init, h, hl =>
    foldl_max_lt_top f l (max init (f a)) (max_lt h (hl a List.mem_cons_self))
      (fun n hn => hl n (List.mem_cons_of_mem a hn))

/-- A running maximum is at least where it started. -/
theorem le_foldl_max_init {ι : Type*} (f : ι → EReal) :
    ∀ (l : List ι) (init : EReal), init ≤ l.foldl (fun r n => max r (f n)) init
  | [], _ => le_rfl
  | a :: l, init => (le_max_left init (f a)).trans (le_foldl_max_init f l (max init (f a)))

/-- A running maximum is at least every entry it met. -/
theorem le_foldl_max {ι : Type*} (f : ι → EReal) :
    ∀ (l : List ι) (init : EReal) (n : ι), n ∈ l → f n ≤ l.foldl (fun r n => max r (f n)) init
  | a :: l, init, n, hn => by
    rcases List.mem_cons.1 hn with rfl | hn
    · exact (le_max_right init (f n)).trans (le_foldl_max_init f l (max init (f n)))
    · exact le_foldl_max f l (max init (f a)) n hn

/-- An absolute value `max x (-x)` is nonnegative. -/
theorem zero_le_max_neg (x : EReal) : 0 ≤ max x (-x) := by
  rcases le_total 0 x with h | h
  · exact h.trans (le_max_left _ _)
  · exact (EReal.neg_nonneg.2 h).trans (le_max_right _ _)

end EReal
-- ==== Proof.LibMaxReduce.lean ====
/-
  The host's maximum-reduce on the extended reals: bounds that need no evaluation.

  A `stablehlo.reduce` by `maximum` at the ideal values is a running maximum, from the initial value, over the
  operand's entries that reduce into the result entry. So the result is below ⊤ when the initial value and every
  entry are, and it is at least every entry that reduces into it. For a reduction over ALL axes every entry
  reduces into the one result entry.
-/
import Idealize.ShloMosaic.PureOps.Reduce
import Idealize.ShloMosaic.PureOps.Ideal
import proofs.«164544_g68023692034068_cont_9to1_m_350_14_alg».proof.Proof.LibNonnegFactor

noncomputable section

namespace Idealize.ShloMosaic.MaxReduce

open Idealize.ShloMosaic

variable {s t u : Shape} {axes : List (Fin s.rank)} {φ : FTy}

/-- A maximum-reduce whose initial value and entries are all below ⊤ is below ⊤. -/
theorem reduce_max_lt_top (x : s.Idx → Ideal φ) (init : u.Idx → Ideal φ) (h : s.ReducesTo axes t) (hu : 0 < u.numel) (j : t.Idx)
    (hinit : (init (Shape.Idx.first hu) : EReal) < ⊤) (hx : ∀ i, (x i : EReal) < ⊤) :
    (Host.reduce (FloatOps.maximumf (F := Ideal) (φ := φ)) x init h hu j : EReal) < ⊤ := by
  rw [Host.reduce_eq_foldl]
  exact EReal.foldl_max_lt_top (fun i => (x i : EReal)) _ _ hinit (fun i _ => hx i)

/-- A maximum-reduce is at least every entry that reduces into the result entry. -/
theorem le_reduce_max (x : s.Idx → Ideal φ) (init : u.Idx → Ideal φ) (h : s.ReducesTo axes t) (hu : 0 < u.numel) (j : t.Idx)
    (i : s.Idx) (hi : h.drop i = j) :
    (x i : EReal) ≤ (Host.reduce (FloatOps.maximumf (F := Ideal) (φ := φ)) x init h hu j : EReal) := by
  rw [Host.reduce_eq_foldl]
  refine EReal.le_foldl_max (fun i => (x i : EReal)) _ _ i ?_
  rw [List.mem_filter]
  exact ⟨List.mem_map.2 ⟨s.rowMajor i, List.mem_finRange _, Equiv.symm_apply_apply _ _⟩, by simp [hi]⟩

end Idealize.ShloMosaic.MaxReduce

end
-- ==== Proof.RefAt.lean ====
/-
  The plain computation read at an index.

  The plain computation makes each row of both inputs a unit vector (divide by the length, the length clamped from
  below), takes the inner products of the unit rows (the similarities), shifts every similarity of a row by that
  row's running maximum, exponentiates, normalizes the weights of the row by their total, and averages the centroids
  with those weights. Read one entry at a time, each of its stages is the matching piece of "Centroid.rowR": a
  similarity is "Centroid.simR", a result entry is "Centroid.rowR" at the row's shift. The shift itself is kept as
  one number per row; all that is needed of it is that it is a real number whenever the similarities are.
-/
import proofs.«164544_g68023692034068_cont_9to1_m_350_14_alg».proof.Proof.Gen.ReferenceIdeal.Read
import proofs.«164544_g68023692034068_cont_9to1_m_350_14_alg».proof.Proof.Spec
import proofs.«164544_g68023692034068_cont_9to1_m_350_14_alg».proof.Proof.LibMaxReduce
import Idealize.ShloMosaic.Lib.ValueIdx

noncomputable section

open scoped BigOperators

namespace Centroid.Ref

open Cert.ReferenceIdeal Idealize.ShloMosaic Idealize.ShloMosaic.ValueIdx

/-- The squared length of row n of the first input, as the plain computation sums it. -/
theorem ssq_x (X : (⟨S16384x256, .f32⟩ : BufTy).Contents (Elt Ideal)) (n : Fin 16384) :
    Cert.ReferenceIdeal.Read.val_main_call0_v1 (F := Ideal) X (ix1 n) = Centroid.ssq (fun d => X (ix2 n d)) := by
  rw [Cert.ReferenceIdeal.Read.val_main_call0_v1_apply, Cert.ReferenceIdeal.Read.val_main_call0_cst_apply,
    Ideal.ofBits_def, Ideal.ofBits_zero_f32, zero_add]
  unfold Centroid.ssq
  refine Finset.sum_congr rfl fun k _ => ?_
  have e : Cert.ReferenceIdeal.Read.idx_main_call0_v1 (ix1 n) k = ix2 n k :=
    funext fun a => Fin.ext (by match a with | ⟨0, _⟩ => rfl | ⟨1, _⟩ => rfl)
  rw [e, Cert.ReferenceIdeal.Read.val_main_call0_v0_apply, Ideal.mulf_def]

/-- The squared length of row p of the second input, as the plain computation sums it. -/
theorem ssq_c (C : (⟨S1024x256, .f32⟩ : BufTy).Contents (Elt Ideal)) (p : Fin 1024) :
    Cert.ReferenceIdeal.Read.val_main_call2_v1 (F := Ideal) C (ix1 p) = Centroid.ssq (fun d => C (ix2 p d)) := by
  rw [Cert.ReferenceIdeal.Read.val_main_call2_v1_apply, Cert.ReferenceIdeal.Read.val_main_call2_cst_apply,
    Ideal.ofBits_def, Ideal.ofBits_zero_f32, zero_add]
  unfold Centroid.ssq
  refine Finset.sum_congr rfl fun k _ => ?_
  have e : Cert.ReferenceIdeal.Read.idx_main_call2_v1 (ix1 p) k = ix2 p k :=
    funext fun a => Fin.ext (by match a with | ⟨0, _⟩ => rfl | ⟨1, _⟩ => rfl)
  rw [e, Cert.ReferenceIdeal.Read.val_main_call2_v0_apply, Ideal.mulf_def]

/-- Entry (n, k) of the first input made a unit row. -/
theorem unit_x (X : (⟨S16384x256, .f32⟩ : BufTy).Contents (Elt Ideal)) (n : Fin 16384) (k : Fin 256) :
    Cert.ReferenceIdeal.Read.val_main_v3 (F := Ideal) X (ix2 n k) = Centroid.unitR (fun d => X (ix2 n d)) k := by
  have e2 : Cert.ReferenceIdeal.Read.idx_main_v2 (ix2 n k) = ix2 n (0 : Fin 1) :=
    funext fun a => Fin.ext (by match a with | ⟨0, _⟩ => rfl | ⟨1, _⟩ => rfl)
  have e3 : Cert.ReferenceIdeal.Read.idx_main_call0_v2 (ix2 n (0 : Fin 1)) = ix1 n :=
    funext fun a => Fin.ext (by match a with | ⟨0, _⟩ => rfl)
  rw [Cert.ReferenceIdeal.Read.val_main_v3_apply, Cert.ReferenceIdeal.Read.val_main_v2_apply, e2,
    Cert.ReferenceIdeal.Read.val_main_v1_apply, Cert.ReferenceIdeal.Read.val_main_call1_v1_apply,
    Cert.ReferenceIdeal.Read.val_main_call1_v0_apply, Cert.ReferenceIdeal.Read.val_main_cst_apply,
    Cert.ReferenceIdeal.Read.val_main_v0_apply, Cert.ReferenceIdeal.Read.val_main_call0_v2_apply, e3, ssq_x,
    Ideal.hostDivf_def, Ideal.maximumf_def, Ideal.hostUnary_sqrt_def, Ideal.ofBits_def]
  rfl

/-- Entry (p, k) of the second input made a unit row. -/
theorem unit_c (C : (⟨S1024x256, .f32⟩ : BufTy).Contents (Elt Ideal)) (p : Fin 1024) (k : Fin 256) :
    Cert.ReferenceIdeal.Read.val_main_v7 (F := Ideal) C (ix2 p k) = Centroid.unitR (fun d => C (ix2 p d)) k := by
  have e2 : Cert.ReferenceIdeal.Read.idx_main_v6 (ix2 p k) = ix2 p (0 : Fin 1) :=
    funext fun a => Fin.ext (by match a with | ⟨0, _⟩ => rfl | ⟨1, _⟩ => rfl)
  have e3 : Cert.ReferenceIdeal.Read.idx_main_call2_v2 (ix2 p (0 : Fin 1)) = ix1 p :=
    funext fun a => Fin.ext (by match a with | ⟨0, _⟩ => rfl)
  rw [Cert.ReferenceIdeal.Read.val_main_v7_apply, Cert.ReferenceIdeal.Read.val_main_v6_apply, e2,
    Cert.ReferenceIdeal.Read.val_main_v5_apply, Cert.ReferenceIdeal.Read.val_main_call3_v1_apply,
    Cert.ReferenceIdeal.Read.val_main_call3_v0_apply, Cert.ReferenceIdeal.Read.val_main_cst_0_apply,
    Cert.ReferenceIdeal.Read.val_main_v4_apply, Cert.ReferenceIdeal.Read.val_main_call2_v2_apply, e3, ssq_c,
    Ideal.hostDivf_def, Ideal.maximumf_def, Ideal.hostUnary_sqrt_def, Ideal.ofBits_def]
  rfl

/-- the number the similarities of row n are shifted by before the exponential (the row's running maximum) -/
def shift (X : (⟨S16384x256, .f32⟩ : BufTy).Contents (Elt Ideal)) (C : (⟨S1024x256, .f32⟩ : BufTy).Contents (Elt Ideal)) (n : Fin 16384) : EReal :=
  Cert.ReferenceIdeal.Read.val_main_v12 (F := Ideal) X C (ix1 n)

/-- the similarity matrix at (n, p) -/
theorem sims_at (X : (⟨S16384x256, .f32⟩ : BufTy).Contents (Elt Ideal)) (C : (⟨S1024x256, .f32⟩ : BufTy).Contents (Elt Ideal)) (n : Fin 16384) (p : Fin 1024) :
    Cert.ReferenceIdeal.Read.val_main_v9 (F := Ideal) X C (ix2 n p) = Centroid.simR (fun d => X (ix2 n d)) (fun p d => C (ix2 p d)) p := by
  rw [Cert.ReferenceIdeal.Read.val_main_v9_apply]
  unfold Centroid.simR
  refine Finset.sum_congr rfl fun k _ => ?_
  have el : Cert.ReferenceIdeal.Read.lidx_main_v9 (ix2 n p) k = ix2 n k :=
    funext fun a => Fin.ext (by match a with | ⟨0, _⟩ => rfl | ⟨1, _⟩ => rfl)
  have er : Cert.ReferenceIdeal.Read.idx_main_v8 (Cert.ReferenceIdeal.Read.ridx_main_v9 (ix2 n p) k) = ix2 p k :=
    funext fun a => Fin.ext (by match a with | ⟨0, _⟩ => rfl | ⟨1, _⟩ => rfl)
  rw [el, Cert.ReferenceIdeal.Read.val_main_v8_apply, er, unit_x, unit_c]

/-- The weight of centroid p in row n: the exponential of the similarity shifted by the row's shift. -/
theorem weight_at (X : (⟨S16384x256, .f32⟩ : BufTy).Contents (Elt Ideal)) (C : (⟨S1024x256, .f32⟩ : BufTy).Contents (Elt Ideal)) (n : Fin 16384) (p : Fin 1024) :
    Cert.ReferenceIdeal.Read.val_main_v16 (F := Ideal) X C (ix2 n p)
      = Ideal.exp (Centroid.simR (fun d => X (ix2 n d)) (fun p d => C (ix2 p d)) p - shift X C n) := by
  have e14 : Cert.ReferenceIdeal.Read.idx_main_v14 (ix2 n p) = ix2 n (0 : Fin 1) :=
    funext fun a => Fin.ext (by match a with | ⟨0, _⟩ => rfl | ⟨1, _⟩ => rfl)
  have e13 : Cert.ReferenceIdeal.Read.idx_main_v13 (ix2 n (0 : Fin 1)) = ix1 n :=
    funext fun a => Fin.ext (by match a with | ⟨0, _⟩ => rfl)
  rw [Cert.ReferenceIdeal.Read.val_main_v16_apply, Cert.ReferenceIdeal.Read.val_main_v15_apply,
    Cert.ReferenceIdeal.Read.val_main_v14_apply, e14, Cert.ReferenceIdeal.Read.val_main_v13_apply, e13, sims_at,
    Ideal.hostUnary_exp_def, Ideal.subf_def]
  rfl

/-- The total weight of row n. -/
theorem total_at (X : (⟨S16384x256, .f32⟩ : BufTy).Contents (Elt Ideal)) (C : (⟨S1024x256, .f32⟩ : BufTy).Contents (Elt Ideal)) (n : Fin 16384) :
    Cert.ReferenceIdeal.Read.val_main_v17 (F := Ideal) X C (ix1 n)
      = ∑ p' : Fin 1024, Ideal.exp (Centroid.simR (fun d => X (ix2 n d)) (fun p d => C (ix2 p d)) p' - shift X C n) := by
  rw [Cert.ReferenceIdeal.Read.val_main_v17_apply, Cert.ReferenceIdeal.Read.val_main_cst_3_apply,
    Ideal.ofBits_def, Ideal.ofBits_zero_f32, zero_add]
  refine Finset.sum_congr rfl fun k _ => ?_
  have e : Cert.ReferenceIdeal.Read.idx_main_v17 (ix1 n) k = ix2 n k :=
    funext fun a => Fin.ext (by match a with | ⟨0, _⟩ => rfl | ⟨1, _⟩ => rfl)
  rw [e, weight_at]

/-- the result at (n, q) -/
theorem result_at (X : (⟨S16384x256, .f32⟩ : BufTy).Contents (Elt Ideal)) (C : (⟨S1024x256, .f32⟩ : BufTy).Contents (Elt Ideal)) (n : Fin 16384) (q : Fin 256) :
    Cert.ReferenceIdeal.Read.val_main_v21 (F := Ideal) X C (ix2 n q)
      = Centroid.rowR (fun d => X (ix2 n d)) (fun p d => C (ix2 p d)) (shift X C n) q := by
  rw [Cert.ReferenceIdeal.Read.val_main_v21_apply]
  unfold Centroid.rowR
  refine Finset.sum_congr rfl fun k _ => ?_
  have el : Cert.ReferenceIdeal.Read.lidx_main_v21 (ix2 n q) k = ix2 n k :=
    funext fun a => Fin.ext (by match a with | ⟨0, _⟩ => rfl | ⟨1, _⟩ => rfl)
  have er : Cert.ReferenceIdeal.Read.ridx_main_v21 (ix2 n q) k = ix2 k q :=
    funext fun a => Fin.ext (by match a with | ⟨0, _⟩ => rfl | ⟨1, _⟩ => rfl)
  have e19 : Cert.ReferenceIdeal.Read.idx_main_v19 (ix2 n k) = ix2 n (0 : Fin 1) :=
    funext fun a => Fin.ext (by match a with | ⟨0, _⟩ => rfl | ⟨1, _⟩ => rfl)
  have e18 : Cert.ReferenceIdeal.Read.idx_main_v18 (ix2 n (0 : Fin 1)) = ix1 n :=
    funext fun a => Fin.ext (by match a with | ⟨0, _⟩ => rfl)
  rw [el, er, Cert.ReferenceIdeal.Read.val_main_v20_apply, Cert.ReferenceIdeal.Read.val_main_v19_apply, e19,
    Cert.ReferenceIdeal.Read.val_main_v18_apply, e18, total_at, weight_at, Ideal.hostDivf_def]

/-- The pattern of minus infinity denotes the least extended real. -/
theorem ofBits_neg_inf : Ideal.ofBits .f32 0xFF800000#32 = (⊥ : EReal) := by
  simp [Ideal.ofBits, Ideal.ieee]

/-- when every similarity is a real, so is each row's shift -/
theorem shift_real (X : (⟨S16384x256, .f32⟩ : BufTy).Contents (Elt Ideal)) (C : (⟨S1024x256, .f32⟩ : BufTy).Contents (Elt Ideal))
    (hsim : ∀ (n' : Fin 16384) (p : Fin 1024), ∃ r : ℝ, Centroid.simR (fun d => X (ix2 n' d)) (fun p d => C (ix2 p d)) p = ((r : ℝ) : EReal))
    (n : Fin 16384) : ∃ r : ℝ, shift X C n = ((r : ℝ) : EReal) := by
  -- the shift is the maximum of the least extended real and the row's running maximum, that is the running maximum
  have hs : shift X C n
      = Host.reduce (FloatOps.maximumf (F := Ideal) (φ := .f32)) (Cert.ReferenceIdeal.Read.val_main_v9 (F := Ideal) X C)
          (Cert.ReferenceIdeal.Read.val_main_cst_1 (F := Ideal)) Cert.ReferenceIdeal.Gen.reducesTo_S16384x1024_S16384_d1 Cert.ReferenceIdeal.Gen.h_S_ (ix1 n) := by
    unfold shift
    rw [Cert.ReferenceIdeal.Read.val_main_v12_apply, Cert.ReferenceIdeal.Read.val_main_v11_apply,
      Cert.ReferenceIdeal.Read.val_main_cst_2_apply, Ideal.maximumf_def, Ideal.ofBits_def, ofBits_neg_inf]
    exact max_bot_left _
  -- every similarity is below the greatest extended real, and so is the initial value
  have hlt : shift X C n < ⊤ := by
    rw [hs]
    refine MaxReduce.reduce_max_lt_top _ _ _ _ _ ?_ ?_
    · rw [Cert.ReferenceIdeal.Read.val_main_cst_1_apply, Ideal.ofBits_def, ofBits_neg_inf]
      exact bot_lt_top
    · intro i
      obtain ⟨a, b, rfl⟩ : ∃ (a : Fin 16384) (b : Fin 1024), i = ix2 a b := ⟨i 0, i 1, eq_ix2 i⟩
      obtain ⟨r, hr⟩ := hsim a b
      rw [sims_at, hr]
      exact EReal.coe_lt_top r
  -- the running maximum is at least the row's first similarity, a real
  have hgt : ⊥ < shift X C n := by
    obtain ⟨r, hr⟩ := hsim n 0
    have hle := MaxReduce.le_reduce_max (φ := .f32) (Cert.ReferenceIdeal.Read.val_main_v9 (F := Ideal) X C)
      (Cert.ReferenceIdeal.Read.val_main_cst_1 (F := Ideal)) Cert.ReferenceIdeal.Gen.reducesTo_S16384x1024_S16384_d1 Cert.ReferenceIdeal.Gen.h_S_ (ix1 n) (ix2 n (0 : Fin 1024))
      (funext fun b => Fin.ext (by
        match b with
        | ⟨0, _⟩ => exact Cert.ReferenceIdeal.Gen.reducesTo_S16384x1024_S16384_d1.drop_apply_val_of_eq (ix2 n (0 : Fin 1024)) 0 0))
    rw [← hs, sims_at, hr] at hle
    exact lt_of_lt_of_le (EReal.bot_lt_coe r) hle
  exact ⟨(shift X C n).toReal, (EReal.coe_toReal (ne_of_lt hlt) (ne_of_gt hgt)).symm⟩

end Centroid.Ref

end
-- ==== Proof.SpecLaw.lean ====
import proofs.«164544_g68023692034068_cont_9to1_m_350_14_alg».proof.Proof.Spec
noncomputable section
open scoped BigOperators
namespace Centroid
open Idealize.ShloMosaic

/-- The coercion of a finite sum of reals is the sum of the coercions. -/
theorem coe_finset_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The coercion of reals into the extended reals is monotone, so it commutes with max. -/
theorem coe_max (a b : ℝ) : ((max a b : ℝ) : EReal) = max (a : EReal) (b : EReal) :=
  EReal.coe_strictMono.monotone.map_max

/-- The clamp length 2305843 / 2^61. -/
def D : ℝ := 2305843 / 2305843009213693952

theorem D_pos : 0 < D := by unfold D; norm_num

/-- The binary32 pattern with sign 0, exponent field 87 and fraction 834764 denotes
    (2^23 + 834764) * 2^(87 - 127 - 23) = 9223372 / 2^63 = 2305843 / 2^61. -/
theorem floorR_eq : floorR = ((D : ℝ) : EReal) := by
  unfold floorR D
  simp [Ideal.ofBits, Ideal.ieee, -EReal.coe_mul]
  norm_num

/-- 2305843^2 = 5316911940649 and (2^61)^2 = 2^122. -/
theorem floorSq_eq : floorSq = ((D ^ 2 : ℝ) : EReal) := by
  unfold floorSq D
  congr 1
  norm_num

/-- The squared length of a real vector. -/
def len2 (v : Fin 256 → ℝ) : ℝ := ∑ d, v d * v d

theorem len2_nonneg (v : Fin 256 → ℝ) : 0 ≤ len2 v :=
  Finset.sum_nonneg (fun d _ => mul_self_nonneg (v d))

/-- The clamped length of a real vector: never below D, so positive. -/
def nrm (v : Fin 256 → ℝ) : ℝ := max (Real.sqrt (len2 v)) D

theorem nrm_pos (v : Fin 256 → ℝ) : 0 < nrm v := lt_max_of_lt_right D_pos

theorem ssq_coe (v : Fin 256 → ℝ) : ssq (fun d => ((v d : ℝ) : EReal)) = ((len2 v : ℝ) : EReal) := by
  unfold ssq len2
  rw [coe_finset_sum]
  exact Finset.sum_congr rfl (fun d _ => (EReal.coe_mul _ _).symm)

/-- The square root is monotone and sqrt (D^2) = D, so clamping the squared length at D^2 and then
    taking the root is clamping the length at D. -/
theorem sqrt_max_eq (v : Fin 256 → ℝ) : Real.sqrt (max (len2 v) (D ^ 2)) = nrm v := by
  have hmono : Monotone Real.sqrt := fun a b h => Real.sqrt_le_sqrt h
  rw [hmono.map_max, Real.sqrt_sq D_pos.le]
  rfl

theorem unitK_coe (v : Fin 256 → ℝ) (d : Fin 256) :
    unitK (fun d => ((v d : ℝ) : EReal)) d = ((v d / nrm v : ℝ) : EReal) := by
  have hpos : 0 < max (len2 v) (D ^ 2) := lt_max_of_lt_right (pow_pos D_pos 2)
  unfold unitK
  rw [ssq_coe, floorSq_eq, ← coe_max, Ideal.rsqrt_coe, if_neg (not_lt.mpr hpos.le), if_neg hpos.ne', sqrt_max_eq,
    ← EReal.coe_mul, div_eq_mul_inv]

theorem unitR_coe (v : Fin 256 → ℝ) (d : Fin 256) :
    unitR (fun d => ((v d : ℝ) : EReal)) d = ((v d / nrm v : ℝ) : EReal) := by
  unfold unitR
  rw [ssq_coe, Ideal.sqrt_coe, if_neg (not_lt.mpr (len2_nonneg v)), floorR_eq, ← coe_max, max_comm]
  change Ideal.div _ ((nrm v : ℝ) : EReal) = _
  rw [Ideal.div_coe (nrm_pos v).ne', ← EReal.coe_mul, mul_one_div]

/-- The cosine similarity of a real row with centroid p, both clamped at length D. -/
def sim (x : Fin 256 → ℝ) (c : Fin 1024 → Fin 256 → ℝ) (p : Fin 1024) : ℝ :=
  ∑ d, (x d / nrm x) * (c p d / nrm (c p))

theorem simK_coe (x : Fin 256 → ℝ) (c : Fin 1024 → Fin 256 → ℝ) (p : Fin 1024) :
    simK (fun d => ((x d : ℝ) : EReal)) (fun p d => ((c p d : ℝ) : EReal)) p = ((sim x c p : ℝ) : EReal) := by
  unfold simK sim
  rw [coe_finset_sum]
  refine Finset.sum_congr rfl (fun d _ => ?_)
  show unitK (fun d => ((x d : ℝ) : EReal)) d * unitK (fun d => ((c p d : ℝ) : EReal)) d = _
  rw [unitK_coe, unitK_coe, EReal.coe_mul]

theorem simR_coe (x : Fin 256 → ℝ) (c : Fin 1024 → Fin 256 → ℝ) (p : Fin 1024) :
    simR (fun d => ((x d : ℝ) : EReal)) (fun p d => ((c p d : ℝ) : EReal)) p = ((sim x c p : ℝ) : EReal) := by
  unfold simR sim
  rw [coe_finset_sum]
  refine Finset.sum_congr rfl (fun d _ => ?_)
  show unitR (fun d => ((x d : ℝ) : EReal)) d * unitR (fun d => ((c p d : ℝ) : EReal)) d = _
  rw [unitR_coe, unitR_coe, EReal.coe_mul]

/-- The total weight: a sum of exponentials over a nonempty index set, so positive. -/
def tot (x : Fin 256 → ℝ) (c : Fin 1024 → Fin 256 → ℝ) : ℝ := ∑ p, Real.exp (sim x c p)

theorem tot_pos (x : Fin 256 → ℝ) (c : Fin 1024 → Fin 256 → ℝ) : 0 < tot x c :=
  Finset.sum_pos (fun p _ => Real.exp_pos _) Finset.univ_nonempty

theorem rowK_coe (x : Fin 256 → ℝ) (c : Fin 1024 → Fin 256 → ℝ) (q : Fin 256) :
    rowK (fun d => ((x d : ℝ) : EReal)) (fun p d => ((c p d : ℝ) : EReal)) q
      = (((∑ p, Real.exp (sim x c p) * c p q) / tot x c : ℝ) : EReal) := by
  unfold rowK
  have h1 : (∑ p : Fin 1024, Ideal.exp (simK (fun d => ((x d : ℝ) : EReal)) (fun p d => ((c p d : ℝ) : EReal)) p)
        * ((c p q : ℝ) : EReal)) = ((∑ p, Real.exp (sim x c p) * c p q : ℝ) : EReal) := by
    rw [coe_finset_sum]
    refine Finset.sum_congr rfl (fun p _ => ?_)
    rw [simK_coe, Ideal.exp_coe, EReal.coe_mul]
  have h2 : (∑ p : Fin 1024, Ideal.exp (simK (fun d => ((x d : ℝ) : EReal)) (fun p d => ((c p d : ℝ) : EReal)) p))
        = ((tot x c : ℝ) : EReal) := by
    unfold tot
    rw [coe_finset_sum]
    refine Finset.sum_congr rfl (fun p _ => ?_)
    rw [simK_coe, Ideal.exp_coe]
  beta_reduce
  rw [h1, h2, Ideal.div_coe (tot_pos x c).ne', ← EReal.coe_mul, mul_one_div]

theorem rowR_coe (x : Fin 256 → ℝ) (c : Fin 1024 → Fin 256 → ℝ) (M : ℝ) (q : Fin 256) :
    rowR (fun d => ((x d : ℝ) : EReal)) (fun p d => ((c p d : ℝ) : EReal)) ((M : ℝ) : EReal) q
      = (((∑ p, Real.exp (sim x c p) * c p q) / tot x c : ℝ) : EReal) := by
  unfold rowR
  have hexp : ∀ p : Fin 1024,
      Ideal.exp (simR (fun d => ((x d : ℝ) : EReal)) (fun p d => ((c p d : ℝ) : EReal)) p - ((M : ℝ) : EReal))
        = ((Real.exp (sim x c p) * Real.exp (-M) : ℝ) : EReal) := by
    intro p
    rw [simR_coe, ← EReal.coe_sub, Ideal.exp_coe, sub_eq_add_neg, Real.exp_add]
  have hsum : (∑ p' : Fin 1024,
      Ideal.exp (simR (fun d => ((x d : ℝ) : EReal)) (fun p d => ((c p d : ℝ) : EReal)) p' - ((M : ℝ) : EReal)))
        = ((tot x c * Real.exp (-M) : ℝ) : EReal) := by
    unfold tot
    rw [Finset.sum_mul, coe_finset_sum]
    exact Finset.sum_congr rfl (fun p _ => hexp p)
  have htot : tot x c ≠ 0 := (tot_pos x c).ne'
  have hM : Real.exp (-M) ≠ 0 := (Real.exp_pos (-M)).ne'
  have hne : tot x c * Real.exp (-M) ≠ 0 := mul_ne_zero htot hM
  beta_reduce
  rw [hsum, Finset.sum_div, coe_finset_sum]
  refine Finset.sum_congr rfl (fun p _ => ?_)
  rw [hexp, Ideal.div_coe hne, ← EReal.coe_mul, ← EReal.coe_mul]
  congr 1
  field_simp

/-- every similarity of real data is a real -/
theorem simR_real (x : Fin 256 → ℝ) (c : Fin 1024 → Fin 256 → ℝ) (p : Fin 1024) :
    ∃ r : ℝ, simR (fun d => ((x d : ℝ) : EReal)) (fun p d => ((c p d : ℝ) : EReal)) p = ((r : ℝ) : EReal) :=
  ⟨sim x c p, simR_coe x c p⟩

/-- for real data and a real shift the two ways of writing the weighted mean agree -/
theorem rowK_eq_rowR (x : Fin 256 → ℝ) (c : Fin 1024 → Fin 256 → ℝ) (M : ℝ) (q : Fin 256) :
    rowK (fun d => ((x d : ℝ) : EReal)) (fun p d => ((c p d : ℝ) : EReal)) q
      = rowR (fun d => ((x d : ℝ) : EReal)) (fun p d => ((c p d : ℝ) : EReal)) ((M : ℝ) : EReal) q := by
  rw [rowK_coe, rowR_coe]

end Centroid
end
-- ==== Proof.Bridge.lean ====
import proofs.«164544_g68023692034068_cont_9to1_m_350_14_alg».proof.Proof.RefAt
import proofs.«164544_g68023692034068_cont_9to1_m_350_14_alg».proof.Proof.SpecLaw
noncomputable section
open scoped BigOperators
namespace Centroid
open Cert.ReferenceIdeal Idealize.ShloMosaic Idealize.ShloMosaic.ValueIdx

/-- For real data the plain computation's result at (n, q) is the unshifted weighted mean with one division:
    every similarity of real rows is a real, so the row's shift is a real, and for a real shift the shifted,
    weight-by-weight normalized form equals the unshifted form. -/
theorem reference_at_eq_rowK (X : (⟨S16384x256, .f32⟩ : BufTy).Contents (Elt Ideal)) (C : (⟨S1024x256, .f32⟩ : BufTy).Contents (Elt Ideal))
    (hX : ∀ i, ∃ r : ℝ, X i = ((r : ℝ) : EReal)) (hC : ∀ i, ∃ r : ℝ, C i = ((r : ℝ) : EReal)) (n : Fin 16384) (q : Fin 256) :
    Cert.ReferenceIdeal.Read.val_main_v21 (F := Ideal) X C (ix2 n q) = rowK (fun d => X (ix2 n d)) (fun p d => C (ix2 p d)) q := by
  choose xr hxr using hX
  choose cr hcr using hC
  -- the rows of both inputs are coercions of real rows
  have hx : ∀ n' : Fin 16384, (fun d : Fin 256 => (X (ix2 n' d) : EReal)) = fun d => ((xr (ix2 n' d) : ℝ) : EReal) :=
    fun n' => funext fun d => hxr _
  have hc : (fun (p : Fin 1024) (d : Fin 256) => (C (ix2 p d) : EReal)) = fun p d => ((cr (ix2 p d) : ℝ) : EReal) :=
    funext fun p => funext fun d => hcr _
  -- so every similarity is a real, and with them each row's shift
  have hsim : ∀ (n' : Fin 16384) (p : Fin 1024),
      ∃ r : ℝ, simR (fun d => X (ix2 n' d)) (fun p d => C (ix2 p d)) p = ((r : ℝ) : EReal) := by
    intro n' p
    rw [hx n', hc]
    exact simR_real (fun d => xr (ix2 n' d)) (fun p d => cr (ix2 p d)) p
  obtain ⟨M, hM⟩ := Ref.shift_real X C hsim n
  rw [Ref.result_at, hM, hx n, hc]
  exact (rowK_eq_rowR (fun d => xr (ix2 n d)) (fun p d => cr (ix2 p d)) M q).symm

end Centroid
end
-- ==== Proof.FiniteInputs.lean ====
import proofs.«164544_g68023692034068_cont_9to1_m_350_14_alg».proof.Proof.Gen.Pre_finite_inputs
import Idealize.ShloMosaic.Lib.ReduceAll
import Idealize.ShloMosaic.Lib.ValueIdx
noncomputable section
namespace Centroid
open Idealize.ShloMosaic

/-- A shape of rank 0 has one index. -/
instance : Subsingleton Cert.Pre_finite_inputs.S_.Idx := ⟨fun a b => funext fun d => d.elim0⟩

/-- The binary32 pattern with every exponent bit set and fraction 0 denotes +∞. -/
theorem ofBits_inf : Ideal.ofBits .f32 0x7F800000#32 = (⊤ : EReal) := by
  simp [Ideal.ofBits, Ideal.ieee]

/-- On the extended reals |x| = max x (-x), and |x| < +∞ leaves neither infinity: x is a real. -/
theorem real_of_abs_lt_inf (x : EReal)
    (h : Ideal.cmp .olt (max x (-x)) (Ideal.ofBits .f32 0x7F800000#32) = 1#1) : ∃ r : ℝ, x = ((r : ℝ) : EReal) := by
  rw [ofBits_inf] at h
  unfold Ideal.cmp at h
  induction x using EReal.rec with
  | bot => simp at h
  | coe r => exact ⟨r, rfl⟩
  | top => simp at h

/-- The precondition is the conjunction, over both inputs, of "every entry has |x| < +∞";
    so every entry of both inputs is a real. -/
theorem real_of_finite_inputs (X : FVec Ideal Cert.Pre_finite_inputs.S16384x256 .f32) (C : FVec Ideal Cert.Pre_finite_inputs.S1024x256 .f32)
    (h : Cert.Pre_finite_inputs.fn (F := Ideal) X C = (fun _ => 1#1)) :
    (∀ i, ∃ r : ℝ, X i = ((r : ℝ) : EReal)) ∧ (∀ i, ∃ r : ℝ, C i = ((r : ℝ) : EReal)) := by
  have e := congrFun h ValueIdx.ix0
  dsimp only [Cert.Pre_finite_inputs.fn, andi] at e
  obtain ⟨e1, e2⟩ := IntOp.andi_eq_one.1 e
  refine ⟨fun i => ?_, fun i => ?_⟩
  · exact real_of_abs_lt_inf (X i) (Host.reduce_andi_all _ _ _ _ _ e1 i)
  · exact real_of_abs_lt_inf (C i) (Host.reduce_andi_all _ _ _ _ _ e2 i)

end Centroid
end
-- ==== Proof.lean ====
/-
  The soft assignment of 16384 rows to 1024 centroids, computed two ways, gives the same array on the extended reals.

  Both programs take x (16384 rows of 256 entries) and the centroid table c (1024 rows of 256 entries) and return, for
  every row, the mean of the centroids weighted by the exponentials of the row's cosine similarities with them.

  The fused program walks the rows in 8 blocks of 2048. At the first block it scales the centroid rows to unit length —
  multiplying each row by the reciprocal square root of its squared length clamped from below — and keeps that table and
  the table itself for the later blocks; for each block it scales the rows of x the same way, forms the similarities,
  takes their exponentials unshifted, multiplies by the table and divides by the row totals at the end. The plain
  program divides every row by its length clamped from below, shifts each row's similarities by the row's maximum before
  the exponential, and divides each weight by its row total before multiplying by the table.

  The two clamps cut at the same length: the squared-length clamp is read as the exact square of the length clamp
  2305843 / 2^61 (that is the certificate's one named constant; its binary32 rounding is the pattern the fused program
  carries). With that, for real inputs: sqrt (max s D^2) = max (sqrt s) D, so both scalings give v / max (|v|, D); the
  shift cancels between a weight and its row total because every similarity and the row maximum are reals; and a
  positive real total divides the sum of the weighted centroids whether taken before or after the sum. Finiteness of the
  inputs is what makes every one of those quantities a real.

  The three programs' runs terminate with the arguments unchanged: for the two kernel programs that is their generated
  frame; for the plain program its generated run with the result dropped.
-/
import proofs.«164544_g68023692034068_cont_9to1_m_350_14_alg».proof.Defs
import proofs.«164544_g68023692034068_cont_9to1_m_350_14_alg».proof.Proof.Gen.Kernel
import proofs.«164544_g68023692034068_cont_9to1_m_350_14_alg».proof.Proof.Gen.Kernel.Frame
import proofs.«164544_g68023692034068_cont_9to1_m_350_14_alg».proof.Proof.Gen.KernelIdeal
import proofs.«164544_g68023692034068_cont_9to1_m_350_14_alg».proof.Proof.Gen.KernelIdeal.Frame
import proofs.«164544_g68023692034068_cont_9to1_m_350_14_alg».proof.Proof.Gen.KernelIdeal.Value
import proofs.«164544_g68023692034068_cont_9to1_m_350_14_alg».proof.Proof.Gen.ReferenceIdeal
import proofs.«164544_g68023692034068_cont_9to1_m_350_14_alg».proof.Proof.Gen.ReferenceIdeal.Run
import proofs.«164544_g68023692034068_cont_9to1_m_350_14_alg».proof.Proof.Gen.ReferenceIdeal.Read
import proofs.«164544_g68023692034068_cont_9to1_m_350_14_alg».proof.Proof.Gen.Pre_finite_inputs
import proofs.«164544_g68023692034068_cont_9to1_m_350_14_alg».proof.Proof.Whole
import proofs.«164544_g68023692034068_cont_9to1_m_350_14_alg».proof.Proof.Bridge
import proofs.«164544_g68023692034068_cont_9to1_m_350_14_alg».proof.Proof.FiniteInputs
import Idealize.ShloMosaic.Adequacy
import Idealize.ShloMosaic.Init

noncomputable section

namespace Cert.Proof

open Idealize.ShloMosaic Idealize.SL.Sem Idealize.ShloMosaic.ValueIdx

/-- The word-level kernel terminates, faults nowhere and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the plain program: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant, at its two sites: the clamp of a squared length denotes (2305843 / 2^61)^2. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- From memories that agree on x and c, both programs end with the same result array: entry (n, q) is entry q of
    the weighted mean of the centroids for row n. The fused program's array is that function of its arguments whatever
    they hold; the plain program's is the same function once every entry of x and c is a real. -/
theorem algebraic : Cert.algebraic_KernelIdeal_ReferenceIdeal := by
  intro m ρ m' ρ' hpre hagree
  refine ⟨fun c => Cert.KernelIdeal.Whole.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  obtain ⟨hX, hC⟩ := Centroid.real_of_finite_inputs _ _ (hpre c)
  funext i
  rw [eq_ix2 i]
  exact Centroid.reference_at_eq_rowK _ _ hX hC _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
